-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S_ : Shape := ⟨0, ![]⟩
abbrev S65536 : Shape := ⟨1, ![65536]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  reducesTo_S65536x512_S65536_d1 : S65536x512.ReducesTo [1] S65536
  bcast_S_S65536 : S_.BroadcastsInDim S65536 (![] : Fin 0 → Fin S65536.rank)
  reducesTo_S65536_S_d0 : S65536.ReducesTo [0] S_

variable [Facts]

def fn_part1 {F : FTy → Type} [FloatOps F] (main_v14 : IVec S_ 1) (main_v15 : FVec F S65536x512 .f32) (main_cst_5 : FVec F S_ .f32) : IVec S_ 1 :=
  let main_v16 : FVec F S65536 .f32 := (fun x v => Host.reduceAdd x v reducesTo_S65536x512_S65536_d1 h_S_) main_v15 main_cst_5
  let main_cst_6 : FVec F S_ .f32 := constant S_ .f32 0x00000000#32
  let main_v17 : FVec F S65536 .f32 := broadcastInDim S65536 ![] bcast_S_S65536 main_cst_6
  let main_v18 : IVec S65536 1 := cmpf .ogt main_v16 main_v17
  let main_c_7 : IVec S_ 1 := constantI S_ 1 1#1
  let main_v19 : IVec S_ 1 := (fun x v => Host.reduce IntOp.andi x v reducesTo_S65536_S_d0 h_S_) main_v18 main_c_7
  let main_v20 : IVec S_ 1 := andi main_v14 main_v19
  main_v20

def fn {F : FTy → Type} [FloatOps F] (main_arg0 : FVec F S65536x512 .f32) (main_arg1 : FVec F S65536x512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S65536x512 .f32 := Host.absf main_arg1
  let main_cst_0 : FVec F S_ .f32 := constant S_ .f32 0x7F800000#32
  let main_v5 : FVec F S65536x512 .f32 := broadcastInDim S65536x512 ![] bcast_S_S65536x512 main_cst_0
  let main_v6 : IVec S65536x512 1 := cmpf .olt main_v4 main_v5
  let main_c_1 : IVec S_ 1 := constantI S_ 1 1#1
  let main_v7 : IVec S_ 1 := (fun x v => Host.reduce IntOp.andi x v reducesTo_S65536x512_S_d0_1 h_S_) main_v6 main_c_1
  let main_v8 : IVec S_ 1 := andi main_v3 main_v7
  let main_v9 : FVec F S65536x512 .f32 := mulf main_arg0 main_arg0
  let main_cst_2 : FVec F S_ .f32 := constant S_ .f32 0x00000000#32
  let main_v10 : FVec F S65536 .f32 := (fun x v => Host.reduceAdd x v reducesTo_S65536x512_S65536_d1 h_S_) main_v9 main_cst_2
  let main_cst_3 : FVec F S_ .f32 := constant S_ .f32 0x00000000#32
  let main_v11 : FVec F S65536 .f32 := broadcastInDim S65536 ![] bcast_S_S65536 main_cst_3
  let main_v12 : IVec S65536 1 := cmpf .ogt main_v10 main_v11
  let main_c_4 : IVec S_ 1 := constantI S_ 1 1#1
  let main_v13 : IVec S_ 1 := (fun x v => Host.reduce IntOp.andi x v reducesTo_S65536_S_d0 h_S_) main_v12 main_c_4
  let main_v14 : IVec S_ 1 := andi main_v8 main_v13
  let main_v15 : FVec F S65536x512 .f32 := mulf main_arg1 main_arg1
  let main_cst_5 : FVec F S_ .f32 := constant S_ .f32 0x00000000#32
  fn_part1 (F := F) main_v14 main_v15 main_cst_5
-- ==== Kernel.lean ====
abbrev S65536x512 : Shape := ⟨2, ![65536, 512]⟩
abbrev S65536x1 : Shape := ⟨2, ![65536, 1]⟩
abbrev S2048x512 : Shape := ⟨2, ![2048, 512]⟩
abbrev S2048x1 : Shape := ⟨2, ![2048, 1]⟩
abbrev S2048 : Shape := ⟨1, ![2048]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S65536x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S2048x1, .f32⟩
  | .local _ .vmem, ⟨5, _⟩ => ⟨S2048x1, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S2048x512_S2048x512_0_0 : ∀ a, (![0, 0] : Fin 2 → Nat) a + S2048x512.size a ≤ S2048x512.size a
  h_S2048x512 : 0 < S2048x512.numel
  reduces_S2048x512_S2048 : S2048x512.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  reducesTo_S65536x1_S_d0_1 : S65536x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S65536x512.size a
  hwx0_1 : ∀ i : grid0.Coords, EltTy.bits .f32 = 32 ∨ (Rect.block (s := S65536x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S65536x1.size a
  hwx0_2 : ∀ i : grid0.Coords, EltTy.bits .f32 = 32 ∨ (Rect.block (s := S65536x1) S2048x1.size (cc0_transform_2 i) (hinb0_2 i)).WholeWords (EltTy.packing .f32)

variable [Facts₀]

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x512 : Shape := ⟨2, ![65536, 512]⟩
abbrev S_ : Shape := ⟨0, ![]⟩
abbrev S65536 : Shape := ⟨1, ![65536]⟩
abbrev S65536x1 : Shape := ⟨2, ![65536, 1]⟩

abbrev nBuf : Space → Nat
  | .hbm => 25
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S65536x512, .f32⟩
  | .hbm, ⟨3, _⟩ => ⟨S_, .f32⟩
  | .hbm, ⟨4, _⟩ => ⟨S65536, .f32⟩
  | .hbm, ⟨5, _⟩ => ⟨S65536x1, .f32⟩
  | .hbm, ⟨6, _⟩ => ⟨S65536x1, .f32⟩
  | .hbm, ⟨7, _⟩ => ⟨S65536x512, .f32⟩
  | .hbm, ⟨8, _⟩ => ⟨S65536x512, .f32⟩
  | .hbm, ⟨9, _⟩ => ⟨S65536x512, .f32⟩
  | .hbm, ⟨10, _⟩ => ⟨S_, .f32⟩
  | .hbm, ⟨11, _⟩ => ⟨S65536, .f32⟩
  | .hbm, ⟨12, _⟩ => ⟨S65536x1, .f32⟩
  | .hbm, ⟨13, _⟩ => ⟨S65536x1, .f32⟩
  | .hbm, ⟨14, _⟩ => ⟨S65536x512, .f32⟩
  | .hbm, ⟨15, _⟩ => ⟨S65536x512, .f32⟩
  | .hbm, ⟨16, _⟩ => ⟨S65536x512, .f32⟩
  | .hbm, ⟨17, _⟩ => ⟨S_, .f32⟩
  | .hbm, ⟨18, _⟩ => ⟨S65536, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_call1_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩

abbrev nD : Nat := 1
abbrev τ : Topo := Topo.v7x

variable {F : FTy → Type} [FloatOps F]

class Facts₀ : Prop where
  reducesTo_S65536x512_S65536_d1 : S65536x512.ReducesTo [1] S65536
  h_S_ : 0 < S_.numel
  bcast_S65536_S65536x1_0 : S65536.BroadcastsInDim S65536x1 (![0] : Fin 1 → Fin S65536x1.rank)
  bcast_S65536x1_S65536x512_0_1 : S65536x1.BroadcastsInDim S65536x512 (![0, 1] : Fin 2 → Fin S65536x512.rank)
  reducesTo_S65536_S_d0 : S65536.ReducesTo [0] S_

variable [Facts₀]

class Facts : Prop extends Facts₀ where

variable [Facts]
-- ==== Proof.LibHostRead.lean ====
/-
  A reference program's host operations read at an index, on the extended reals, over literal-shape patterns.

  A reference that normalises over a batch, takes squared distances to a family of centres and projects on a family
  of directions is spelt, on the host, with five kinds of operation besides the elementwise ones:
    • a one-axis sum (`reduce` with an `add` body from a zero word): along the columns or the rows of an `[a, b]`
      array, or along the last axis of an `[a, b, c]` array — at a result index it is the sum of the operand over the
      dropped coordinate;
    • `broadcast_in_dim`: a vector turned into a one-row or one-column matrix and that matrix repeated over the other
      axis, a matrix given a unit middle or leading axis and repeated along it, a literal scalar repeated everywhere —
      at a result index each reads the operand at the coordinates it keeps;
    • a matrix transpose, a rotation of three axes, and two arrays stacked along the leading axis;
    • `dot_general` contracting the columns of an `[B, D]` matrix with the last axis of an `[N, K, D]` array into
      `[B, N, K]` — at `(p, q, j)` the sum over `d` of `l (p, d) * r (q, j, d)`;
    • the host's negation, exponential and reciprocal square root, elementwise.
  Every extent is generic and every shape fact is a hypothesis, so the lemmas apply to any program's records.
-/
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost

namespace Hmu.Lib

open Idealize.ShloMosaic Idealize.ShloMosaic.ValueIdx

variable {a b c k : ℕ}

/-! ## The host's elementwise operations at an index -/

/-- The host's negation at an index negates the element. -/
theorem hostNegf_apply {s : Shape} {φ : FTy} (x : FVec Ideal s φ) (i : s.Idx) : Host.negf x i = -(x i) := rfl
/-- The host's exponential at an index is the extended exponential of the element. -/
theorem hostExp_apply {s : Shape} {φ : FTy} (x : FVec Ideal s φ) (i : s.Idx) : Host.exp x i = Ideal.exp (x i) := rfl
/-- The host's reciprocal square root at an index is the extended one of the element. -/
theorem hostRsqrt_apply {s : Shape} {φ : FTy} (x : FVec Ideal s φ) (i : s.Idx) : Host.rsqrt x i = Ideal.rsqrt (x i) := rfl

/-! ## The index a one-axis reduction reads: the result index with the dropped coordinate put back -/

/-- Over the columns of an `[a, b]` array: row `r` with the column `j` put back is `(r, j)`. -/
theorem lift_ab_axis1 (h : Shape.Reduces ⟨2, ![a, b]⟩ [1] ⟨1, ![a]⟩) (r : Fin a) (j : Fin b) :
    h.lift (ix1 r) j = ix2 r j := by
  funext d
  apply Fin.ext
  match d with
  | ⟨0, _⟩ => rfl
  | ⟨1, _⟩ => rfl

/-- Over the rows of an `[a, b]` array: column `j` with the row `r` put back is `(r, j)`. -/
theorem lift_ab_axis0 (h : Shape.Reduces ⟨2, ![a, b]⟩ [0] ⟨1, ![b]⟩) (j : Fin b) (r : Fin a) :
    h.lift (ix1 j) r = ix2 r j := by
  funext d
  apply Fin.ext
  match d with
  | ⟨0, _⟩ => rfl
  | ⟨1, _⟩ => rfl

/-- Over the last axis of an `[a, b, c]` array: `(p, q)` with the last coordinate `j` put back is `(p, q, j)`. -/
theorem lift_abc_axis2 (h : Shape.Reduces ⟨3, ![a, b, c]⟩ [2] ⟨2, ![a, b]⟩) (p : Fin a) (q : Fin b) (j : Fin c) :
    h.lift (ix2 p q) j = ix3 p q j := by
  funext d
  apply Fin.ext
  match d with
  | ⟨0, _⟩ => rfl
  | ⟨1, _⟩ => rfl
  | ⟨2, _⟩ => rfl

/-! ## The host's sum along one axis from the zero word -/

/-- The host's sum of an `[a, b]` array along its columns, from the zero word: at row `r` the row's sum. -/
theorem hostReduceAdd_ab_axis1_apply {u : Shape} (x : FVec Ideal ⟨2, ![a, b]⟩ .f32)
    (h' : Shape.ReducesTo ⟨2, ![a, b]⟩ [1] ⟨1, ![a]⟩) (hu : 0 < u.numel) (r : Fin a) :
    Host.reduceAdd x (constant u .f32 0x00000000#32) h' hu (ix1 r) = ∑ j : Fin b, x (ix2 r j) := by
  have h : Shape.Reduces ⟨2, ![a, b]⟩ [1] ⟨1, ![a]⟩ := ⟨h'.1, Nat.one_pos, h'.2⟩
  refine (hostReduceAdd_apply x _ h' hu (ix1 r)).trans ?_
  refine (Ideal.hostReduceAdd_single h' h x _ (ix1 r)).trans ?_
  show Ideal.ofBits .f32 0x00000000#32 + _ = _
  rw [Ideal.ofBits_zero_f32, zero_add]
  exact Finset.sum_congr rfl fun j _ => congrArg x (lift_ab_axis1 h r j)

/-- The host's sum of an `[a, b]` array along its rows, from the zero word: at column `j` the column's sum. -/
theorem hostReduceAdd_ab_axis0_apply {u : Shape} (x : FVec Ideal ⟨2, ![a, b]⟩ .f32)
    (h' : Shape.ReducesTo ⟨2, ![a, b]⟩ [0] ⟨1, ![b]⟩) (hu : 0 < u.numel) (j : Fin b) :
    Host.reduceAdd x (constant u .f32 0x00000000#32) h' hu (ix1 j) = ∑ r : Fin a, x (ix2 r j) := by
  have h : Shape.Reduces ⟨2, ![a, b]⟩ [0] ⟨1, ![b]⟩ := ⟨h'.1, Nat.one_pos, h'.2⟩
  refine (hostReduceAdd_apply x _ h' hu (ix1 j)).trans ?_
  refine (Ideal.hostReduceAdd_single h' h x _ (ix1 j)).trans ?_
  show Ideal.ofBits .f32 0x00000000#32 + _ = _
  rw [Ideal.ofBits_zero_f32, zero_add]
  exact Finset.sum_congr rfl fun r _ => congrArg x (lift_ab_axis0 h j r)

/-- The host's sum of an `[a, b, c]` array along its last axis, from the zero word: at `(p, q)` the sum over the last
    coordinate. -/
theorem hostReduceAdd_abc_axis2_apply {u : Shape} (x : FVec Ideal ⟨3, ![a, b, c]⟩ .f32)
    (h' : Shape.ReducesTo ⟨3, ![a, b, c]⟩ [2] ⟨2, ![a, b]⟩) (hu : 0 < u.numel) (p : Fin a) (q : Fin b) :
    Host.reduceAdd x (constant u .f32 0x00000000#32) h' hu (ix2 p q) = ∑ j : Fin c, x (ix3 p q j) := by
  have h : Shape.Reduces ⟨3, ![a, b, c]⟩ [2] ⟨2, ![a, b]⟩ := ⟨h'.1, Nat.two_pos, h'.2⟩
  refine (hostReduceAdd_apply x _ h' hu (ix2 p q)).trans ?_
  refine (Ideal.hostReduceAdd_single h' h x _ (ix2 p q)).trans ?_
  show Ideal.ofBits .f32 0x00000000#32 + _ = _
  rw [Ideal.ofBits_zero_f32, zero_add]
  exact Finset.sum_congr rfl fun j _ => congrArg x (lift_abc_axis2 h p q j)

/-! ## `broadcast_in_dim` at an index -/

section Broadcast
variable {α : Type}

/-- A literal scalar repeated over any shape reads the literal's value everywhere. -/
theorem bcast_const_apply {T : Shape} (w : BitVec 32) (h : (⟨0, ![]⟩ : Shape).BroadcastsInDim T ![]) (j : T.Idx) :
    broadcastInDim T ![] h (constant (F := Ideal) ⟨0, ![]⟩ .f32 w) j = Ideal.ofBits .f32 w :=
  broadcastInDim_scalar_apply h _ j

/-- A vector `[a]` as the column `[a, 1]`: "(r, u) ↦ r". -/
theorem bcast_a_a1_apply (x : (⟨1, ![a]⟩ : Shape).Idx → α)
    (h : (⟨1, ![a]⟩ : Shape).BroadcastsInDim ⟨2, ![a, 1]⟩ (![0] : Fin 1 → Fin 2)) (r : Fin a) (u : Fin 1) :
    broadcastInDim ⟨2, ![a, 1]⟩ ![0] h x (ix2 r u) = x (ix1 r) := by
  refine broadcastInDim_apply _ h x _ (ix1 r) fun ax => ?_
  match ax with
  | ⟨0, _⟩ =>
    show r.val = if a = 1 then 0 else r.val
    split
    · have := r.isLt; omega
    · rfl

/-- A column `[a, 1]` repeated over `[a, b]`: `(r, j) ↦ (r, 0)`. -/
theorem bcast_a1_ab_apply (x : (⟨2, ![a, 1]⟩ : Shape).Idx → α)
    (h : (⟨2, ![a, 1]⟩ : Shape).BroadcastsInDim ⟨2, ![a, b]⟩ (![0, 1] : Fin 2 → Fin 2)) (r : Fin a) (j : Fin b) :
    broadcastInDim ⟨2, ![a, b]⟩ ![0, 1] h x (ix2 r j) = x (ix2 r (0 : Fin 1)) := by
  refine broadcastInDim_apply _ h x _ (ix2 r (0 : Fin 1)) fun ax => ?_
  match ax with
  | ⟨0, _⟩ =>
    show r.val = if a = 1 then 0 else r.val
    split
    · have := r.isLt; omega
    · rfl
  | ⟨1, _⟩ => rfl

/-- A vector `[b]` as the row `[1, b]`: "(u, j) ↦ j". -/
theorem bcast_b_1b_apply (x : (⟨1, ![b]⟩ : Shape).Idx → α)
    (h : (⟨1, ![b]⟩ : Shape).BroadcastsInDim ⟨2, ![1, b]⟩ (![1] : Fin 1 → Fin 2)) (u : Fin 1) (j : Fin b) :
    broadcastInDim ⟨2, ![1, b]⟩ ![1] h x (ix2 u j) = x (ix1 j) := by
  refine broadcastInDim_apply _ h x _ (ix1 j) fun ax => ?_
  match ax with
  | ⟨0, _⟩ =>
    show j.val = if b = 1 then 0 else j.val
    split
    · have := j.isLt; omega
    · rfl

/-- A row `[1, b]` repeated over `[a, b]`: `(r, j) ↦ (0, j)`. -/
theorem bcast_1b_ab_apply (x : (⟨2, ![1, b]⟩ : Shape).Idx → α)
    (h : (⟨2, ![1, b]⟩ : Shape).BroadcastsInDim ⟨2, ![a, b]⟩ (![0, 1] : Fin 2 → Fin 2)) (r : Fin a) (j : Fin b) :
    broadcastInDim ⟨2, ![a, b]⟩ ![0, 1] h x (ix2 r j) = x (ix2 (0 : Fin 1) j) := by
  refine broadcastInDim_apply _ h x _ (ix2 (0 : Fin 1) j) fun ax => ?_
  match ax with
  | ⟨0, _⟩ => rfl
  | ⟨1, _⟩ =>
    show j.val = if b = 1 then 0 else j.val
    split
    · have := j.isLt; omega
    · rfl

/-- A matrix `[a, c]` given a unit middle axis `[a, 1, c]`: `(p, u, q) ↦ (p, q)`. -/
theorem bcast_ac_a1c_apply (x : (⟨2, ![a, c]⟩ : Shape).Idx → α)
    (h : (⟨2, ![a, c]⟩ : Shape).BroadcastsInDim ⟨3, ![a, 1, c]⟩ (![0, 2] : Fin 2 → Fin 3)) (p : Fin a) (u : Fin 1)
    (q : Fin c) : broadcastInDim ⟨3, ![a, 1, c]⟩ ![0, 2] h x (ix3 p u q) = x (ix2 p q) := by
  refine broadcastInDim_apply _ h x _ (ix2 p q) fun ax => ?_
  match ax with
  | ⟨0, _⟩ =>
    show p.val = if a = 1 then 0 else p.val
    split
    · have := p.isLt; omega
    · rfl
  | ⟨1, _⟩ =>
    show q.val = if c = 1 then 0 else q.val
    split
    · have := q.isLt; omega
    · rfl

/-- An `[a, 1, c]` array repeated along its middle axis over `[a, k, c]`: `(p, j, q) ↦ (p, 0, q)`. -/
theorem bcast_a1c_akc_apply (x : (⟨3, ![a, 1, c]⟩ : Shape).Idx → α)
    (h : (⟨3, ![a, 1, c]⟩ : Shape).BroadcastsInDim ⟨3, ![a, k, c]⟩ (![0, 1, 2] : Fin 3 → Fin 3)) (p : Fin a) (j : Fin k)
    (q : Fin c) : broadcastInDim ⟨3, ![a, k, c]⟩ ![0, 1, 2] h x (ix3 p j q) = x (ix3 p (0 : Fin 1) q) := by
  refine broadcastInDim_apply _ h x _ (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if c = 1 then 0 else q.val
    split
    · have := q.isLt; omega
    · rfl

/-- A matrix `[b, k]` given a unit leading axis `[1, b, k]`: `(u, q, j) ↦ (q, j)`. -/
theorem bcast_bk_1bk_apply (x : (⟨2, ![b, k]⟩ : Shape).Idx → α)
    (h : (⟨2, ![b, k]⟩ : Shape).BroadcastsInDim ⟨3, ![1, b, k]⟩ (![1, 2] : Fin 2 → Fin 3)) (u : Fin 1) (q : Fin b)
    (j : Fin k) : broadcastInDim ⟨3, ![1, b, k]⟩ ![1, 2] h x (ix3 u q j) = x (ix2 q j) := by
  refine broadcastInDim_apply _ h x _ (ix2 q j) fun ax => ?_
  match ax with
  | ⟨0, _⟩ =>
    show q.val = if b = 1 then 0 else q.val
    split
    · have := q.isLt; omega
    · rfl
  | ⟨1, _⟩ =>
    show j.val = if k = 1 then 0 else j.val
    split
    · have := j.isLt; omega
    · rfl

/-- A `[1, b, k]` array repeated along its leading axis over `[a, b, k]`: `(p, q, j) ↦ (0, q, j)`. -/
theorem bcast_1bk_abk_apply (x : (⟨3, ![1, b, k]⟩ : Shape).Idx → α)
    (h : (⟨3, ![1, b, k]⟩ : Shape).BroadcastsInDim ⟨3, ![a, b, k]⟩ (![0, 1, 2] : Fin 3 → Fin 3)) (p : Fin a) (q : Fin b)
    (j : Fin k) : broadcastInDim ⟨3, ![a, b, k]⟩ ![0, 1, 2] h x (ix3 p q j) = x (ix3 (0 : Fin 1) q j) := by
  refine broadcastInDim_apply _ h x _ (ix3 (0 : Fin 1) q j) fun ax => ?_
  match ax with
  | ⟨0, _⟩ => rfl
  | ⟨1, _⟩ =>
    show q.val = if b = 1 then 0 else q.val
    split
    · have := q.isLt; omega
    · rfl
  | ⟨2, _⟩ =>
    show j.val = if k = 1 then 0 else j.val
    split
    · have := j.isLt; omega
    · rfl

/-- A per-row vector `[a]` spread over `[a, b]` through the column `[a, 1]`: "(r, j) ↦ r". -/
theorem bcastRows_apply (x : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (r : Fin a) (j : Fin b) :
    broadcastInDim ⟨2, ![a, b]⟩ ![0, 1] h2 (broadcastInDim ⟨2, ![a, 1]⟩ ![0] h1 x) (ix2 r j) = x (ix1 r) :=
  (bcast_a1_ab_apply _ h2 r j).trans (bcast_a_a1_apply x h1 r 0)

/-- A per-column vector `[b]` spread over `[a, b]` through the row `[1, b]`: "(r, j) ↦ j". -/
theorem bcastCols_apply (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (r : Fin a) (j : Fin b) :
    broadcastInDim ⟨2, ![a, b]⟩ ![0, 1] h2 (broadcastInDim ⟨2, ![1, b]⟩ ![1] h1 x) (ix2 r j) = x (ix1 j) :=
  (bcast_1b_ab_apply _ h2 r j).trans (bcast_b_1b_apply x h1 0 j)

/-- A matrix `[a, c]` repeated `k` times along a new middle axis, through `[a, 1, c]`: `(p, j, q) ↦ (p, q)`. -/
theorem bcastMiddle_apply (x : (⟨2, ![a, c]⟩ : Shape).Idx → α)
    (h1 : (⟨2, ![a, c]⟩ : Shape).BroadcastsInDim ⟨3, ![a, 1, c]⟩ (![0, 2] : Fin 2 → Fin 3))
    (h2 : (⟨3, ![a, 1, c]⟩ : Shape).BroadcastsInDim ⟨3, ![a, k, c]⟩ (![0, 1, 2] : Fin 3 → Fin 3)) (p : Fin a) (j : Fin k)
    (q : Fin c) :
    broadcastInDim ⟨3, ![a, k, c]⟩ ![0, 1, 2] h2 (broadcastInDim ⟨3, ![a, 1, c]⟩ ![0, 2] h1 x) (ix3 p j q) = x (ix2 p q) :=
  (bcast_a1c_akc_apply _ h2 p j q).trans (bcast_ac_a1c_apply x h1 p 0 q)

/-- A matrix `[b, k]` repeated `a` times along a new leading axis, through `[1, b, k]`: `(p, q, j) ↦ (q, j)`. -/
theorem bcastLeading_apply (x : (⟨2, ![b, k]⟩ : Shape).Idx → α)
    (h1 : (⟨2, ![b, k]⟩ : Shape).BroadcastsInDim ⟨3, ![1, b, k]⟩ (![1, 2] : Fin 2 → Fin 3))
    (h2 : (⟨3, ![1, b, k]⟩ : Shape).BroadcastsInDim ⟨3, ![a, b, k]⟩ (![0, 1, 2] : Fin 3 → Fin 3)) (p : Fin a) (q : Fin b)
    (j : Fin k) :
    broadcastInDim ⟨3, ![a, b, k]⟩ ![0, 1, 2] h2 (broadcastInDim ⟨3, ![1, b, k]⟩ ![1, 2] h1 x) (ix3 p q j) = x (ix2 q j) :=
  (bcast_1bk_abk_apply _ h2 p q j).trans (bcast_bk_1bk_apply x h1 0 q j)

end Broadcast

/-! ## A transpose that rotates the axes, and two pieces stacked along the leading axis -/

section Layout
variable {α : Type} {m mt : ℕ}

/-- An `[a, b, c]` array with its axes rotated to `[b, c, a]` (permutation `[1, 2, 0]`) reads, at `(j, q, p)`, the
    operand at `(p, j, q)`. -/
theorem transpose_ix3_120_apply (x : (⟨3, ![a, b, c]⟩ : Shape).Idx → α)
    (h : (⟨3, ![a, b, c]⟩ : Shape).Transposes [1, 2, 0] ⟨3, ![b, c, a]⟩) (j : Fin b) (q : Fin c) (p : Fin a) :
    transpose ⟨3, ![b, c, a]⟩ [1, 2, 0] x h (ix3 j q p) = x (ix3 p j q) :=
  transpose_apply _ x h _ _ fun e => match e with | ⟨0, _⟩ => rfl | ⟨1, _⟩ => rfl | ⟨2, _⟩ => rfl

/-- One slab `[1, a, b]` stacked on `m` slabs `[m, a, b]` along the leading axis: slab `0` of the stack is the
    first piece. -/
theorem concat_1ab_mab_head_apply (x₁ : (⟨3, ![1, a, b]⟩ : Shape).Idx → α) (x₂ : (⟨3, ![m, a, b]⟩ : Shape).Idx → α)
    (h : Shape.Concatenates [⟨3, ![1, a, b]⟩, ⟨3, ![m, a, b]⟩] ⟨3, ![mt, a, b]⟩ 0) (s : Fin mt) (hs : s.val = 0)
    (p : Fin a) (q : Fin b) :
    concatenate ⟨3, ![mt, a, b]⟩ 0 [⟨⟨3, ![1, a, b]⟩, x₁⟩, ⟨⟨3, ![m, a, b]⟩, x₂⟩] h (ix3 s p q) = x₁ (ix3 (0 : Fin 1) p q) :=
  concatenate_pair_apply_left (0 : Fin 3) x₁ x₂ h (ix3 s p q) rfl (ix3 (0 : Fin 1) p q) fun e =>
    match e with | ⟨0, _⟩ => hs.symm | ⟨1, _⟩ => rfl | ⟨2, _⟩ => rfl

/-- … and slab `j + 1` of the stack is slab `j` of the second piece. -/
theorem concat_1ab_mab_tail_apply (x₁ : (⟨3, ![1, a, b]⟩ : Shape).Idx → α) (x₂ : (⟨3, ![m, a, b]⟩ : Shape).Idx → α)
    (h : Shape.Concatenates [⟨3, ![1, a, b]⟩, ⟨3, ![m, a, b]⟩] ⟨3, ![mt, a, b]⟩ 0) (s : Fin mt) (j : Fin m)
    (hs : s.val = j.val + 1) (p : Fin a) (q : Fin b) :
    concatenate ⟨3, ![mt, a, b]⟩ 0 [⟨⟨3, ![1, a, b]⟩, x₁⟩, ⟨⟨3, ![m, a, b]⟩, x₂⟩] h (ix3 s p q) = x₂ (ix3 j p q) :=
  concatenate_pair_apply_right (0 : Fin 3) x₁ x₂ h (ix3 s p q) rfl rfl (ix3 j p q)
    (fun e he => match e, he with | ⟨0, _⟩, he => absurd rfl he | ⟨1, _⟩, _ => rfl | ⟨2, _⟩, _ => rfl)
    hs.symm

end Layout

/-! ## A matrix against a stack of direction families: `[B, D] × [N, K, D] → [B, N, K]` -/

section Dot
variable {B D N K : ℕ}

/-- The dimension numbers "contract the left operand's columns with the right operand's last axis, no batch axis",
    over any extents; the shape conditions are the caller's fact. -/
def dotBDxNKD (B D N K : ℕ)
    (wf : DotDims.WF ⟨2, ![B, D]⟩ ⟨3, ![N, K, D]⟩ ⟨3, ![B, N, K]⟩ [1] [2] [0] [0, 1] [] []) :
    DotDims ⟨2, ![B, D]⟩ ⟨3, ![N, K, D]⟩ ⟨3, ![B, N, K]⟩ where
  lhsContracting := [1]
  rhsContracting := [2]
  lhsNonContracting := [0]
  rhsNonContracting := [0, 1]
  lhsBatch := []
  rhsBatch := []
  wf := wf

variable (wf : DotDims.WF ⟨2, ![B, D]⟩ ⟨3, ![N, K, D]⟩ ⟨3, ![B, N, K]⟩ [1] [2] [0] [0, 1] [] [])

/-- The left operand's index at output entry `(p, q, j)` and contracted coordinate `d` is `(p, d)`. -/
theorem dotBDxNKD_lhsIdx (p : Fin B) (q : Fin N) (j : Fin K) (d : Fin D) :
    (dotBDxNKD B D N K wf).lhsIdx (ix3 p q j) ((contrEquiv1 (dotBDxNKD B D N K wf) D rfl rfl).symm d) = ix2 p d := by
  have hk := contrEquiv1_symm_val (dotBDxNKD B D N K wf) D rfl rfl d
  funext ax
  apply Fin.ext
  match ax with
  | ⟨0, _⟩ => rfl
  | ⟨1, _⟩ => exact ((dotBDxNKD B D N K wf).lhsIdx_val_of_single (cl := 1) rfl _ _).trans hk

/-- The right operand's index at output entry `(p, q, j)` and contracted coordinate `d` is `(q, j, d)`. -/
theorem dotBDxNKD_rhsIdx (p : Fin B) (q : Fin N) (j : Fin K) (d : Fin D) :
    (dotBDxNKD B D N K wf).rhsIdx (ix3 p q j) ((contrEquiv1 (dotBDxNKD B D N K wf) D rfl rfl).symm d) = ix3 q j d := by
  have hk := contrEquiv1_symm_val (dotBDxNKD B D N K wf) D rfl rfl d
  funext ax
  apply Fin.ext
  match ax with
  | ⟨0, _⟩ => rfl
  | ⟨1, _⟩ => rfl
  | ⟨2, _⟩ => exact ((dotBDxNKD B D N K wf).rhsIdx_val_of_single (cr := 2) rfl _ _).trans hk

/-- The host's `dot_general` with these dimension numbers, read at `(p, q, j)`: the sum over the contracted coordinate
    of the left operand's row `p` against the right operand's fibre `(q, j)`. -/
theorem dotBDxNKD_apply {φ₁ φ₂ : FTy} (l : FVec Ideal ⟨2, ![B, D]⟩ φ₁) (r : FVec Ideal ⟨3, ![N, K, D]⟩ φ₂)
    (prec : Option ContractPrecision) (sched : HostSchedule) (p : Fin B) (q : Fin N) (j : Fin K) :
    FloatOps.dotGeneral (dotBDxNKD B D N K wf) prec sched l r (ix3 p q j) = ∑ d : Fin D, l (ix2 p d) * r (ix3 q j d) := by
  refine (Ideal.dotGeneral_apply (dotBDxNKD B D N K wf) prec sched l r (ix3 p q j)).trans ?_
  rw [← Equiv.sum_comp (contrEquiv1 (dotBDxNKD B D N K wf) D rfl rfl).symm]
  refine Finset.sum_congr rfl fun d _ => ?_
  rw [dotBDxNKD_lhsIdx, dotBDxNKD_rhsIdx]

end Dot

end Hmu.Lib
-- ==== Proof.PreDecode.lean ====
/-
  The precondition read back.

  The stated domain is: every entry of both arrays is finite, and every row of each array has a positive sum of squares
  (no row is the zero vector, so no row's norm is zero). It is printed as four `all`-reductions of comparison bits joined
  by `and`; each reduction being 1 says every compared element is 1. An entry whose absolute value is below `+∞` is a
  real number; a row whose sum of squares compares greater than the zero word has a positive sum of squares.
-/
import proofs.«106209_j52166672777434_2_alg».proof.Pre_finite_inputs
import proofs.«106209_j52166672777434_2_alg».proof.Proof.LibHostRead
import Idealize.ShloMosaic.Lib.ReduceAll
import Idealize.ShloMosaic.PureOps.Ideal.Laws

noncomputable section

namespace Cosine.Pre

open Idealize.ShloMosaic Idealize.ShloMosaic.ValueIdx Cert.Pre_finite_inputs

instance : Subsingleton (S_.Idx) := ⟨fun _ _ => funext fun d => d.elim0⟩

/-- The f32 pattern of `+∞` denotes `⊤`. -/
theorem ofBits_pos_inf_f32 : Ideal.ofBits .f32 0x7F800000#32 = ⊤ := by simp [Ideal.ofBits, Ideal.ieee]

/-- A comparison bit is 1 exactly when the comparison holds. -/
theorem ofBool_eq_one {b : Bool} : BitVec.ofBool b = 1#1 ↔ b = true := by cases b <;> decide

/-- An extended real whose absolute value is below `+∞` is a real number. -/
theorem real_of_abs_lt_inf (x : EReal)
    (h : FloatOps.cmpf (F := Ideal) (φ := .f32) .olt (FloatOps.hostAbsf x) (Ideal.ofBits .f32 0x7F800000#32) = 1#1) :
    ∃ r : ℝ, x = (r : EReal) := by
  rw [Ideal.cmpf_def, Ideal.hostAbsf_def, Ideal.absf_def, ofBits_pos_inf_f32] at h
  simp only [Ideal.cmp, ofBool_eq_one, decide_eq_true_eq] at h
  induction x using EReal.rec with
  | bot => simp at h
  | coe r => exact ⟨r, rfl⟩
  | top => simp at h

/-- A comparison "greater than the zero word" that is 1 says the left side is positive. -/
theorem pos_of_gt_zero (x : EReal)
    (h : FloatOps.cmpf (F := Ideal) (φ := .f32) .ogt x (Ideal.ofBits .f32 0x00000000#32) = 1#1) : 0 < x := by
  rw [Ideal.cmpf_def, Ideal.ofBits_zero_f32] at h
  simpa only [Ideal.cmp, ofBool_eq_one, decide_eq_true_eq] using h

variable [Facts]

/-- The stated domain, read back from the printed predicate: both arrays hold real numbers, and every row of each has
    a positive sum of squares. -/
theorem decode (x y : FVec Ideal S65536x512 .f32) (h : fn (F := Ideal) x y = fun _ => 1#1) :
    (∀ i, ∃ r : ℝ, x i = (r : EReal)) ∧ (∀ i, ∃ r : ℝ, y i = (r : EReal))
      ∧ (∀ r : Fin 65536, 0 < ∑ k : Fin 512, x (ix2 r k) * x (ix2 r k))
      ∧ (∀ r : Fin 65536, 0 < ∑ k : Fin 512, y (ix2 r k) * y (ix2 r k)) := by
  have h0 := congrFun h ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun r => ?_, fun r => ?_⟩
  · exact real_of_abs_lt_inf _ (Host.reduce_andi_all _ _ _ _ _ h1 i)
  · exact real_of_abs_lt_inf _ (Host.reduce_andi_all _ _ _ _ _ h2 i)
  · have e := Host.reduce_andi_all _ _ _ _ _ h3 (ix1 r)
    rw [cmpf_apply, Hmu.Lib.hostReduceAdd_ab_axis1_apply, Hmu.Lib.bcast_const_apply] at e
    exact pos_of_gt_zero _ e
  · have e := Host.reduce_andi_all _ _ _ _ _ h4 (ix1 r)
    rw [cmpf_apply, Hmu.Lib.hostReduceAdd_ab_axis1_apply, Hmu.Lib.bcast_const_apply] at e
    exact pos_of_gt_zero _ e

end Cosine.Pre

end
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.KernelRow.lean ====
/-
  The kernel body's stored value at an entry.

  The body loads a `[2048, 512]` block `v` of the first argument and the matching block `w` of the second, forms the
  three row sums `∑ₖ v·w`, `∑ₖ v·v`, `∑ₖ w·w` (each a lane reduction recast to a `[2048, 1]` column) and stores
  `(∑ₖ v·w) · rsqrt((∑ₖ v·v)·(∑ₖ w·w))`. At the entry `(p, 0)` of the column this is the cosine of the blocks' rows `p` in
  the product form.
-/
import proofs.«106209_j52166672777434_2_alg».proof.Proof.Gen.KernelIdeal.Skeleton
import proofs.«106209_j52166672777434_2_alg».proof.Proof.LibRowOps

noncomputable section

namespace Cosine.Kernel

open Idealize.ShloMosaic Idealize.ShloMosaic.ValueIdx Cert.KernelIdeal Cert.KernelIdeal.Gen

/-- A block's lane sum recast to a column, at `(p, u)`: the sum of the block's row `p`. -/
theorem rowColumn_apply (z : FVec Ideal S2048x512 .f32) (p : Fin 2048) (u : Fin 1) :
    shapeCast S2048x1 (multiReduction .add [1] S2048 z 0x00000000#32 reduces_S2048x512_S2048 (.inl rfl) rfl)
        shapeCasts_S2048_S2048x1 (ix2 p u)
      = ∑ k : Fin 512, z (ix2 p k) :=
  (Gcn.Lib.shapeCast_a_a1_apply _ shapeCasts_S2048_S2048x1 p u).trans
    (Gcn.Lib.rowSum_apply z reduces_S2048x512_S2048 (.inl rfl) rfl p)

/-- The stored value at `(p, u)`: the dot product of the two blocks' rows `p` times the reciprocal square root of the
    product of the rows' squared norms. -/
theorem pay_apply (v w : Vec Ideal S2048x512 .f32) (p : Fin 2048) (u : Fin 1) :
    k0_pay1 (F := Ideal) v w (ix2 p u)
      = (∑ k : Fin 512, v (ix2 p k) * w (ix2 p k))
        * Ideal.rsqrt ((∑ k : Fin 512, v (ix2 p k) * v (ix2 p k)) * (∑ k : Fin 512, w (ix2 p k) * w (ix2 p k))) := by
  have e : k0_pay1 (F := Ideal) v w (ix2 p u)
      = (shapeCast S2048x1 (multiReduction .add [1] S2048 (mulf (F := Ideal) v w) 0x00000000#32 reduces_S2048x512_S2048 (.inl rfl) rfl)
            shapeCasts_S2048_S2048x1 (ix2 p u))
        * Ideal.rsqrt ((shapeCast S2048x1 (multiReduction .add [1] S2048 (mulf (F := Ideal) v v) 0x00000000#32 reduces_S2048x512_S2048 (.inl rfl) rfl)
            shapeCasts_S2048_S2048x1 (ix2 p u))
          * (shapeCast S2048x1 (multiReduction .add [1] S2048 (mulf (F := Ideal) w w) 0x00000000#32 reduces_S2048x512_S2048 (.inl rfl) rfl)
            shapeCasts_S2048_S2048x1 (ix2 p u))) := rfl
  rw [e, rowColumn_apply, rowColumn_apply, rowColumn_apply]
  rfl

end Cosine.Kernel

end
-- ==== Proof.Spec.lean ====
/-
  What both programs compute, as one function of the two argument arrays.

  For `x, y : [65536, 512]` the cosine of row `r` is written in the product form
  `(∑ₖ x[r,k]·y[r,k]) · ((∑ₖ x[r,k]²)·(∑ₖ y[r,k]²))^(-1/2)`, and the loss is `1 − (∑ᵣ cos r) / 65536`, a rank-0 array. The
  quotient by 65536 and the subtraction from 1 are kept as the operations the two programs share, over the literal
  words they share.
-/
import Idealize.ShloMosaic.PureOps.Ideal
import Idealize.ShloMosaic.Lib.ValueIdx

noncomputable section

namespace Cosine

open Idealize.ShloMosaic Idealize.ShloMosaic.ValueIdx

/-- The cosine of row `r` of `x` against row `r` of `y`: the rows' dot product times the reciprocal square root of the
    product of their squared norms. -/
def rowCos (x y : (⟨2, ![65536, 512]⟩ : Shape).Idx → EReal) (r : Fin 65536) : EReal :=
  (∑ k : Fin 512, x (ix2 r k) * y (ix2 r k))
    * Ideal.rsqrt ((∑ k : Fin 512, x (ix2 r k) * x (ix2 r k)) * (∑ k : Fin 512, y (ix2 r k) * y (ix2 r k)))

/-- What is done to the sum of the rows' cosines: divided by the literal 65536, and that subtracted from the literal 1. -/
def meanLoss (s : FVec Ideal ⟨0, ![]⟩ .f32) : FVec Ideal ⟨0, ![]⟩ .f32 :=
  subf (constant (F := Ideal) ⟨0, ![]⟩ .f32 0x3F800000#32) (Host.divf s (constant (F := Ideal) ⟨0, ![]⟩ .f32 0x47800000#32))

/-- The loss: one minus the mean over the 65536 rows of the rows' cosines. -/
def loss (x y : (⟨2, ![65536, 512]⟩ : Shape).Idx → EReal) : FVec Ideal ⟨0, ![]⟩ .f32 :=
  meanLoss (fun _ => ∑ r : Fin 65536, rowCos x y r)

end Cosine

end
-- ==== Proof.KernelArray.lean ====
/-
  The kernel's output array after the run, and its result.

  Grid point `t` of 32 stages rows `2048·t … 2048·t + 2047` of both arguments (all 512 columns) and writes back the
  column of those rows' cosines, so its block of the `[65536, 1]` output is the restriction of one whole-array function:
  entry `(R, 0)` is the cosine of row `R`. The 32 blocks cover the output (row `R` lies in block `R / 2048`), so after the
  run the output array is that column. The host lines after the region sum the column over both its axes from the zero
  word — the sum over the 65536 rows of the rows' cosines —, divide by 65536 and subtract from 1.
-/
import proofs.«106209_j52166672777434_2_alg».proof.Proof.Gen.KernelIdeal.Frame
import proofs.«106209_j52166672777434_2_alg».proof.Proof.KernelRow
import proofs.«106209_j52166672777434_2_alg».proof.Proof.Spec
import Idealize.ShloMosaic.Lib.Pipeline.Value
import Idealize.ShloMosaic.Lib.StableHlo.Run
import Idealize.ShloMosaic.Lib.IdealHost
import Idealize.ShloMosaic.PureOps.Ideal.Laws

set_option maxRecDepth 16384

noncomputable section

namespace Cosine.Kernel

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The column of the rows' cosines: entry `(R, 0)` is the cosine of row `R` of `x` against row `R` of `y`. -/
def cosColumn (x y : S65536x512.Idx → EReal) : S65536x1.Idx → EReal := fun i => Cosine.rowCos x y (i 0)

/-- The stored value at `(p, u)` of blocks whose rows `p` are row `R` of the arrays: the cosine of row `R`. -/
theorem pay_eq_rowCos (X Y : S65536x512.Idx → EReal) (v w : Vec Ideal S2048x512 .f32) (p : Fin 2048) (u : Fin 1)
    (R : Fin 65536) (hv : ∀ k : Fin 512, v (ix2 p k) = X (ix2 R k)) (hw : ∀ k : Fin 512, w (ix2 p k) = Y (ix2 R k)) :
    k0_pay1 (F := Ideal) v w (ix2 p u) = Cosine.rowCos X Y R := by
  rw [pay_apply]; unfold Cosine.rowCos; simp only [hv, hw]

theorem origin_zero : (![0, 0] : Fin 2 → Nat) = fun _ => 0 := funext fun a => by fin_cases a <;> rfl

/-- The printed index maps over the grid: at point `t` both inputs and the output sit at block row `t`, block column 0. -/
theorem index_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the column of cosines of the argument arrays. -/
theorem flushed_eq (c : Dev nD) (t : Fin cfg0.N) :
    (dats m 0 c).flushed 2 t
      = ((cfg0.win 2).blk t).view.read (Elt Ideal) (cosColumn (V m c main_arg0) (V m c main_arg1)) := by
  show (cfg0.win 2).cut (grid0.coords t) ((dats m 0 c).after 2 t) = _
  rw [after0_2]
  unfold out0_2
  rw [View.canon_unit_zero origin_zero]
  simp only [View.ld_unit_zero (S := S2048x512) origin_zero]
  obtain ⟨e0, e1, e2, e3, e4, e5⟩ := index_facts t
  funext j
  show k0_pay1 (F := Ideal) (iblk m c 0 t) (iblk m c 1 t) j
    = Cosine.rowCos (V m c main_arg0) (V m c main_arg1) ((((cfg0.win 2).blk t).view.emb j) 0)
  refine (congrArg (k0_pay1 (F := Ideal) (iblk m c 0 t) (iblk m c 1 t)) (eq_ix2 j)).trans ?_
  refine pay_eq_rowCos (V m c main_arg0) (V m c main_arg1) (iblk m c 0 t) (iblk m c 1 t) (j 0) (j 1)
    ((((cfg0.win 2).blk t).view.emb j) 0) (fun k => ?_) (fun k => ?_)
  · show V m c main_arg0 (((cfg0.win 0).blk t).view.emb (ix2 (j 0) k))
      = V m c main_arg0 (ix2 ((((cfg0.win 2).blk t).view.emb j) 0) k)
    refine congrArg (V m c main_arg0) (funext fun a => Fin.ext ?_)
    match a with
    | ⟨0, _⟩ =>
      show win0_0.index t (0 : Fin 2) * 2048 + 1 * (j 0).val = win0_2.index t (0 : Fin 2) * 2048 + 1 * (j 0).val
      omega
    | ⟨1, _⟩ =>
      show win0_0.index t (1 : Fin 2) * 512 + 1 * k.val = k.val
      omega
  · show V m c main_arg1 (((cfg0.win 1).blk t).view.emb (ix2 (j 0) k))
      = V m c main_arg1 (ix2 ((((cfg0.win 2).blk t).view.emb j) 0) k)
    refine congrArg (V m c main_arg1) (funext fun a => Fin.ext ?_)
    match a with
    | ⟨0, _⟩ =>
      show win0_1.index t (0 : Fin 2) * 2048 + 1 * (j 0).val = win0_2.index t (0 : Fin 2) * 2048 + 1 * (j 0).val
      omega
    | ⟨1, _⟩ =>
      show win0_1.index t (1 : Fin 2) * 512 + 1 * k.val = k.val
      omega

/-- An index of the output is in point `t`'s block iff each coordinate is in the block's range on its axis. -/
theorem mem_block (t : Fin cfg0.N) (i : S65536x1.Idx) :
    i ∈ ((cfg0.win 2).blk t).view.set ↔ ∀ a : Fin 2, win0_2.index t a * S2048x1.size a ≤ (i a).val
      ∧ (i a).val < win0_2.index t a * S2048x1.size a + S2048x1.size a := by
  show i ∈ ((View.whole main_v0).slice (win0_2.rect t)).set ↔ _
  rw [View.set_slice_whole, Rect.mem_set_unit]
  exact Iff.rfl

/-- Every entry of the output lies in the block of the point its row divided by 2048 names. -/
theorem covered (i : S65536x1.Idx) :
    ∃ t : Fin cfg0.N, (cfg0.win 2).flush t = true ∧ i ∈ ((cfg0.win 2).blk t).view.set := by
  have hi0 : (i 0).val < 65536 := (i 0).isLt
  have hi1 : (i 1).val < 1 := (i 1).isLt
  have hN : grid0.N = 32 := N_0
  obtain ⟨t, ht⟩ : ∃ t : Fin cfg0.N, t.val = (i 0).val / 2048 := ⟨⟨(i 0).val / 2048, by show _ < grid0.N; omega⟩, rfl⟩
  obtain ⟨-, -, -, -, e4, e5⟩ := index_facts t
  refine ⟨t, flush0_2 t, ?_⟩
  rw [mem_block]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 1 ≤ (i 1).val ∧ (i 1).val < win0_2.index t (1 : Fin 2) * 1 + 1
    omega

/-- The output array after the run is the column of the rows' cosines of the argument arrays. -/
theorem final_column (c : Dev nD) :
    (dats m 0 c).arrAt 2 cfg0.N = cosColumn (V m c main_arg0) (V m c main_arg1) :=
  (dats m 0 c).arrAt_eq_of_cover 2 (cosColumn (V m c main_arg0) (V m c main_arg1)) (fun t _ => flushed_eq m c t) covered

/-- The host's sum of the column over both its axes from the zero word is the sum over the rows of their cosines. -/
theorem sum_column (x y : S65536x512.Idx → EReal) :
    Host.reduceAdd (F := Ideal) (φ := .f32) (cosColumn x y) (constant (F := Ideal) S_ .f32 0x00000000#32) reducesTo_S65536x1_S_d0_1 h_S_
      = fun _ => ∑ r : Fin 65536, Cosine.rowCos x y r := by
  funext i
  rw [hostReduceAdd_apply, Ideal.hostReduceAdd_total reducesTo_S65536x1_S_d0_1 (fun b => b.elim0)]
  show Ideal.ofBits .f32 0x00000000#32 + _ = _
  rw [Ideal.ofBits_zero_f32, zero_add, sum_idx2]
  refine Finset.sum_congr rfl fun r _ => ?_
  rw [Fin.sum_univ_one]
  rfl

/-- The program's result after the host lines that follow the region: the loss of the argument arrays. -/
theorem tail_eq (c : Dev nD) :
    Pipeline.afterTail₀ cfgs (dats m) 0 (V0 m) [hostOps1] c main_v3
      = Cosine.loss (V m c main_arg0) (V m c main_arg1) := by
  unfold Pipeline.afterTail₀
  show StableHlo.after hostOps1 _ (Proc.devRef .tc main_v3) = _
  after_results
  have hA : Pipeline.withArrays (cfgs 0).spec c (V0 m c) (fun w => (dats m 0 c).arrAt w (cfgs 0).N)
        (Proc.devRef .tc main_v0)
      = cosColumn (V m c main_arg0) (V m c main_arg1) :=
    (Pipeline.withArrays_arr spec0 launch0.win.arr_inj c _ _ 2).trans (final_column m c)
  rw [hA, sum_column]
  rfl

end Cosine.Kernel

end
-- ==== Proof.LibCosineLaw.lean ====
/-
  The algebra of a row's cosine on the extended reals.

  For two real rows `a`, `b` of the same length with `A = ∑ a²`, `B = ∑ b²` both positive, dividing every entry by
  its row's norm and then summing the products gives `(∑ a·b) / (√A · √B)`, and because `√A · √B = √(A·B)` this is
  `(∑ a·b) · (A·B)^(-1/2)`, the form that multiplies the dot product by one reciprocal square root. Both sides are
  stated with the extended-real operations (the quotient whose divisor may be zero, the square root and the reciprocal
  square root with their conventions at zero and the infinities); on real data with positive `A` and `B` none of the
  conventions is reached, and the identity is the real one.
-/
import Idealize.ShloMosaic.PureOps.Ideal

namespace Cosine

open Idealize.ShloMosaic

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of squares of coercions that is positive on the extended reals is positive on the reals. -/
theorem pos_real_of_pos {n : ℕ} (a : Fin n → ℝ) (h : 0 < ∑ k, (a k : EReal) * (a k : EReal)) : 0 < ∑ k, a k * a k := by
  have e : ∑ k, (a k : EReal) * (a k : EReal) = ((∑ k, a k * a k : ℝ) : EReal) := by
    rw [coe_sum]; simp only [EReal.coe_mul]
  rw [e] at h
  exact_mod_cast h

/-- The real identity: entries divided by their rows' norms, multiplied and summed, against the dot product times
    the reciprocal square root of the product of the squared norms. -/
theorem row_law_real {n : ℕ} (a b : Fin n → ℝ) (hA : 0 < ∑ k, a k * a k) (hB : 0 < ∑ k, b k * b k) :
    ∑ k, (b k * (1 / Real.sqrt (∑ k, b k * b k))) * (a k * (1 / Real.sqrt (∑ k, a k * a k)))
      = (∑ k, a k * b k) * (Real.sqrt ((∑ k, a k * a k) * (∑ k, b k * b k)))⁻¹ := by
  rw [Real.sqrt_mul hA.le, Finset.sum_mul]
  refine Finset.sum_congr rfl fun k _ => ?_
  simp only [one_div, mul_inv]
  ring

/-- The same on the extended reals, over the coercions of the two rows, with the extended-real quotient, square root
    and reciprocal square root. -/
theorem row_law {n : ℕ} (a b : Fin n → ℝ) (hA : 0 < ∑ k, a k * a k) (hB : 0 < ∑ k, b k * b k) :
    ∑ k, Ideal.div (b k : EReal) (Ideal.sqrt (∑ k, (b k : EReal) * (b k : EReal)))
        * Ideal.div (a k : EReal) (Ideal.sqrt (∑ k, (a k : EReal) * (a k : EReal)))
      = (∑ k, (a k : EReal) * (b k : EReal))
        * Ideal.rsqrt ((∑ k, (a k : EReal) * (a k : EReal)) * (∑ k, (b k : EReal) * (b k : EReal))) := by
  have eA : ∑ k, (a k : EReal) * (a k : EReal) = ((∑ k, a k * a k : ℝ) : EReal) := by
    rw [coe_sum]; simp only [EReal.coe_mul]
  have eB : ∑ k, (b k : EReal) * (b k : EReal) = ((∑ k, b k * b k : ℝ) : EReal) := by
    rw [coe_sum]; simp only [EReal.coe_mul]
  have eD : ∑ k, (a k : EReal) * (b k : EReal) = ((∑ k, a k * b k : ℝ) : EReal) := by
    rw [coe_sum]; simp only [EReal.coe_mul]
  have sA : Real.sqrt (∑ k, a k * a k) ≠ 0 := (Real.sqrt_pos.2 hA).ne'
  have sB : Real.sqrt (∑ k, b k * b k) ≠ 0 := (Real.sqrt_pos.2 hB).ne'
  have hAB : 0 < (∑ k, a k * a k) * (∑ k, b k * b k) := mul_pos hA hB
  rw [eA, eB, eD, Ideal.sqrt_coe, Ideal.sqrt_coe, if_neg (not_lt.2 hA.le), if_neg (not_lt.2 hB.le), ← EReal.coe_mul,
    Ideal.rsqrt_coe, if_neg (not_lt.2 hAB.le), if_neg hAB.ne', ← EReal.coe_mul, ← row_law_real a b hA hB, coe_sum]
  refine Finset.sum_congr rfl fun k _ => ?_
  rw [Ideal.div_coe sB, Ideal.div_coe sA, ← EReal.coe_mul, ← EReal.coe_mul, ← EReal.coe_mul]

end Cosine
-- ==== Proof.RefValue.lean ====
/-
  The reference computes the loss.

  The reference divides every entry of the second array by its row's norm `√(∑ₖ y[r,k]²)` and every entry of the first
  by its row's norm, multiplies the two quotients entry by entry, sums each row, sums the rows, divides by 65536 and
  subtracts from 1. On real data whose rows all have positive sums of squares, a row's sum of the quotients' products is
  the row's cosine in the product form (the law of the rows' algebra), so the reference's result is the loss.
-/
import proofs.«106209_j52166672777434_2_alg».proof.Proof.Gen.ReferenceIdeal.Read
import proofs.«106209_j52166672777434_2_alg».proof.Proof.Spec
import proofs.«106209_j52166672777434_2_alg».proof.Proof.LibCosineLaw

noncomputable section

namespace Cosine.Ref

open Idealize.ShloMosaic Idealize.ShloMosaic.ValueIdx
open Cert.ReferenceIdeal Cert.ReferenceIdeal.Gen Cert.ReferenceIdeal.Read

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

variable (x y : FVec Ideal S65536x512 .f32)

/-- The reference's row sum at row `r`: the sum over the row of the second array's entry over its row's norm times the
    first array's entry over its row's norm. -/
theorem row_read (r : Fin 65536) :
    val_main_v7 (F := Ideal) x y (ix1 r)
      = ∑ k : Fin 512, Ideal.div (y (ix2 r k)) (Ideal.sqrt (∑ k : Fin 512, y (ix2 r k) * y (ix2 r k)))
          * Ideal.div (x (ix2 r k)) (Ideal.sqrt (∑ k : Fin 512, x (ix2 r k) * x (ix2 r k))) := by
  have i7 : ∀ k : Fin 512, idx_main_v7 (ix1 r) k = ix2 r k := fun k =>
    funext fun a => Fin.ext (by match a with | ⟨0, _⟩ => rfl | ⟨1, _⟩ => rfl)
  have i1 : ∀ k : Fin 512, idx_main_v1 (ix2 r k) = ix2 r (0 : Fin 1) := fun k =>
    funext fun a => Fin.ext (by match a with | ⟨0, _⟩ => rfl | ⟨1, _⟩ => rfl)
  have i4 : ∀ k : Fin 512, idx_main_v4 (ix2 r k) = ix2 r (0 : Fin 1) := fun k =>
    funext fun a => Fin.ext (by match a with | ⟨0, _⟩ => rfl | ⟨1, _⟩ => rfl)
  have c0 : idx_main_call0_v2 (ix2 r (0 : Fin 1)) = ix1 r :=
    funext fun a => Fin.ext (by match a with | ⟨0, _⟩ => rfl)
  have c1 : idx_main_call1_v2 (ix2 r (0 : Fin 1)) = ix1 r :=
    funext fun a => Fin.ext (by match a with | ⟨0, _⟩ => rfl)
  have j0 : ∀ k : Fin 512, idx_main_call0_v1 (ix1 r) k = ix2 r k := fun k =>
    funext fun a => Fin.ext (by match a with | ⟨0, _⟩ => rfl | ⟨1, _⟩ => rfl)
  have j1 : ∀ k : Fin 512, idx_main_call1_v1 (ix1 r) k = ix2 r k := fun k =>
    funext fun a => Fin.ext (by match a with | ⟨0, _⟩ => rfl | ⟨1, _⟩ => rfl)
  rw [val_main_v7_apply]
  simp only [i7, val_main_v6_apply, val_main_v2_apply, val_main_v5_apply, val_main_v1_apply, val_main_v4_apply, i1, i4,
    val_main_v0_apply, val_main_v3_apply, val_main_call0_v2_apply, val_main_call1_v2_apply, c0, c1,
    val_main_call0_v1_apply, val_main_call1_v1_apply, j0, j1, val_main_call0_v0_apply, val_main_call1_v0_apply,
    val_main_cst_apply, val_main_call0_cst_apply, val_main_call1_cst_apply, Ideal.mulf_def, Ideal.hostDivf_def,
    Ideal.hostUnary_sqrt_def, Ideal.ofBits_def, Ideal.ofBits_zero_f32, zero_add]

/-- On real data with every row's sum of squares positive, the reference's row sum is the row's cosine. -/
theorem row_eq (hx : ∀ i, ∃ r : ℝ, x i = (r : EReal)) (hy : ∀ i, ∃ r : ℝ, y i = (r : EReal))
    (px : ∀ r : Fin 65536, 0 < ∑ k : Fin 512, x (ix2 r k) * x (ix2 r k))
    (py : ∀ r : Fin 65536, 0 < ∑ k : Fin 512, y (ix2 r k) * y (ix2 r k)) (r : Fin 65536) :
    val_main_v7 (F := Ideal) x y (ix1 r) = Cosine.rowCos x y r := by
  rw [row_read]
  choose a ha using hx
  choose b hb using hy
  have hA := px r
  have hB := py r
  unfold Cosine.rowCos
  simp only [ha, hb] at hA hB ⊢
  exact Cosine.row_law (fun k => a (ix2 r k)) (fun k => b (ix2 r k))
    (Cosine.pos_real_of_pos (fun k => a (ix2 r k)) hA) (Cosine.pos_real_of_pos (fun k => b (ix2 r k)) hB)

/-- So the reference's result is the loss of its two arguments. -/
theorem result_eq (hx : ∀ i, ∃ r : ℝ, x i = (r : EReal)) (hy : ∀ i, ∃ r : ℝ, y i = (r : EReal))
    (px : ∀ r : Fin 65536, 0 < ∑ k : Fin 512, x (ix2 r k) * x (ix2 r k))
    (py : ∀ r : Fin 65536, 0 < ∑ k : Fin 512, y (ix2 r k) * y (ix2 r k)) :
    val_main_v10 (F := Ideal) x y = Cosine.loss x y := by
  have e : val_main_v8 (F := Ideal) x y = fun _ => ∑ r : Fin 65536, Cosine.rowCos x y r := by
    funext i
    rw [val_main_v8_apply, val_main_cst_0_apply]
    show Ideal.ofBits .f32 0x00000000#32 + _ = _
    rw [Ideal.ofBits_zero_f32, zero_add, sum_idx1]
    exact Finset.sum_congr rfl fun r _ => row_eq x y hx hy px py r
  show Cosine.meanLoss (val_main_v8 (F := Ideal) x y) = Cosine.meanLoss _
  rw [e]

end Cosine.Ref

end
-- ==== Proof.lean ====
/-
  Row-wise cosine loss: `1 − mean_r cos(x[r,:], y[r,:])` over two `[65536, 512]` arrays.

  The kernel takes 2048 rows per grid point, forms for each row the three sums `∑ x·y`, `∑ x²`, `∑ y²` and stores
  `(∑ x·y) · rsqrt((∑ x²)·(∑ y²))`; the host lines after it sum the 65536 stored values, divide by 65536 and subtract from 1.
  The reference divides each row of each array by its norm `√(∑ x²)`, sums the products of the normalised rows, and ends
  with the same mean and subtraction.

  The two agree on the stated domain: every entry finite and no row of either array the zero vector (each row's sum of
  squares positive). There, for a row with `A = ∑ x² > 0` and `B = ∑ y² > 0`,
  `∑ₖ (yₖ/√B)·(xₖ/√A) = (∑ₖ xₖ·yₖ)/(√A·√B) = (∑ₖ xₖ·yₖ)·(A·B)^(-1/2)`, because `√A·√B = √(A·B)`. On a zero row the
  reference's quotient is `0/0`, which has no value, so such rows are outside the domain.

  The modules: `LibCosineLaw` (the row's algebra on the reals and the extended reals), `Spec` (the loss as one function of
  the arrays), `PreDecode` (the domain read back from the printed predicate), `KernelRow` and `KernelArray` (the stored
  value at an entry, the output array after the run, the result after the host lines), `RefValue` (the reference's result
  is the loss). The frames are the generated ones; the idealization rewrote nothing.
-/
import proofs.«106209_j52166672777434_2_alg».proof.Defs
import proofs.«106209_j52166672777434_2_alg».proof.Proof.Gen.Kernel
import proofs.«106209_j52166672777434_2_alg».proof.Proof.Gen.Kernel.Skeleton
import proofs.«106209_j52166672777434_2_alg».proof.Proof.Gen.Kernel.Launch
import proofs.«106209_j52166672777434_2_alg».proof.Proof.Gen.Kernel.Points
import proofs.«106209_j52166672777434_2_alg».proof.Proof.Gen.Kernel.Frame
import proofs.«106209_j52166672777434_2_alg».proof.Proof.Gen.KernelIdeal
import proofs.«106209_j52166672777434_2_alg».proof.Proof.Gen.KernelIdeal.Skeleton
import proofs.«106209_j52166672777434_2_alg».proof.Proof.Gen.KernelIdeal.Launch
import proofs.«106209_j52166672777434_2_alg».proof.Proof.Gen.KernelIdeal.Points
import proofs.«106209_j52166672777434_2_alg».proof.Proof.Gen.KernelIdeal.Frame
import proofs.«106209_j52166672777434_2_alg».proof.Proof.Gen.ReferenceIdeal
import proofs.«106209_j52166672777434_2_alg».proof.Proof.Gen.Pre_finite_inputs
import proofs.«106209_j52166672777434_2_alg».proof.Proof.Gen.ReferenceIdeal.Run
import proofs.«106209_j52166672777434_2_alg».proof.Proof.Gen.ReferenceIdeal.Read
import proofs.«106209_j52166672777434_2_alg».proof.Proof.PreDecode
import proofs.«106209_j52166672777434_2_alg».proof.Proof.KernelArray
import proofs.«106209_j52166672777434_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel's run with its result named: the loss of the argument arrays. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
        r.2.mem ((c.tc : Thread Cert.KernelIdeal.nD Cert.KernelIdeal.τ).loc Cert.KernelIdeal.main_v3)
            = Cosine.loss (m ((c.tc : Thread Cert.KernelIdeal.nD Cert.KernelIdeal.τ).loc Cert.KernelIdeal.main_arg0))
                (m ((c.tc : Thread Cert.KernelIdeal.nD Cert.KernelIdeal.τ).loc Cert.KernelIdeal.main_arg1))
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)) :=
  (θ_run Cert.KernelIdeal.defs _ _).mono (fun _ h c =>
    ⟨((h c).2 Cert.KernelIdeal.main_v3 (Pipeline.mem_restRefs_of Cert.KernelIdeal.main_v3 (by decide) (by decide))).trans
        (Cosine.Kernel.tail_eq m c),
      ((h c).1 0).trans (((Cert.KernelIdeal.Gen.dats m 0 c).arrAt_in 0 rfl _).trans
        ((Cert.KernelIdeal.Gen.A_eq m c 0).trans (Cert.KernelIdeal.Gen.V_main_arg0 m c))),
      ((h c).1 1).trans (((Cert.KernelIdeal.Gen.dats m 0 c).arrAt_in 1 rfl _).trans
        ((Cert.KernelIdeal.Gen.A_eq m c 1).trans (Cert.KernelIdeal.Gen.V_main_arg1 m c)))⟩)
    (Cert.KernelIdeal.Gen.run_main m ρ)

/-- On the stated domain, from memories agreeing on the arguments, both idealized programs end with the loss of the
    argument arrays as their result. -/
theorem algebraic : Cert.algebraic_KernelIdeal_ReferenceIdeal := by
  intro m ρ m' ρ' hpre hagree
  refine ⟨fun c => Cosine.loss (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), kernel_run m ρ, ?_⟩
  refine (θ_run Cert.ReferenceIdeal.defs _ _).mono (fun _ h c => ⟨(h c).1.trans ?_, (h c).2⟩)
    (Cert.ReferenceIdeal.Value.run (F := Ideal) m' ρ')
  obtain ⟨hx, hy, px, py⟩ := Cosine.Pre.decode _ _ (hpre c)
  rw [Cert.ReferenceIdeal.Read.val_main_v10_eq, (hagree c).1, (hagree c).2]
  exact Cosine.Ref.result_eq _ _ hx hy px py

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
